-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S4x1024x1024 .f32) (main_arg4 : FVec F S4x1024 .f32) (main_arg5 : FVec F S4x1024x1024 .f32) (main_arg6 : FVec F S4x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S4x2048x1024 : Shape := ⟨3, ![4, 2048, 1024]⟩
abbrev S256x1024 : Shape := ⟨2, ![256, 1024]⟩
abbrev S256x2048 : Shape := ⟨2, ![256, 2048]⟩
abbrev S1x2048x1024 : Shape := ⟨3, ![1, 2048, 1024]⟩
abbrev S2048x1024 : Shape := ⟨2, ![2048, 1024]⟩
abbrev S1x1024 : Shape := ⟨2, ![1, 1024]⟩
abbrev S1024 : Shape := ⟨1, ![1024]⟩

abbrev nBuf : Space → Nat
  | .hbm => 15
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4x1024x1024, .f32⟩
  | .hbm, ⟨8, _⟩ => ⟨S4x1024x1024, .bf16⟩
  | .hbm, ⟨9, _⟩ => ⟨S4x1024x1024, .f32⟩
  | .hbm, ⟨10, _⟩ => ⟨S4x1024x1024, .bf16⟩
  | .hbm, ⟨11, _⟩ => ⟨S4x2048x1024, .bf16⟩
  | .hbm, ⟨12, _⟩ => ⟨S4x1024, .f32⟩
  | .hbm, ⟨13, _⟩ => ⟨S16384x1024, .f32⟩
  | .hbm, ⟨14, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x2048x1024, .bf16⟩
  | .local _ .vmem, ⟨7, _⟩ => ⟨S4x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S4x1024x1024_S4x1024x1024_0_2_1 : S4x1024x1024.Transposes [0, 2, 1] S4x1024x1024
  bitsLt_bf16_f32 : FTy.bits .bf16 < FTy.bits .f32
  concatenates_S4x1024x1024_S4x1024x1024_S4x2048x1024_d1 : Shape.Concatenates [S4x1024x1024, S4x1024x1024] S4x2048x1024 1
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S4x2048x1024_S1x2048x1024_3_0_0 : ∀ a, (![3, 0, 0] : Fin 3 → Nat) a + S1x2048x1024.size a ≤ S4x2048x1024.size a
  h_S1x2048x1024 : 0 < S1x2048x1024.numel
  shapeCasts_S1x2048x1024_S2048x1024 : S1x2048x1024.ShapeCasts S2048x1024
  inb_S4x1024_S1x1024_3_0 : ∀ a, (![3, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S256x1024 : S1x1024.Broadcasts S256x1024
  inb_S4x2048x1024_S1x2048x1024_0_0_0 : ∀ a, (![0, 0, 0] : Fin 3 → Nat) a + S1x2048x1024.size a ≤ S4x2048x1024.size a
  inb_S4x1024_S1x1024_0_0 : ∀ a, (![0, 0] : Fin 2 → Nat) a + S1x1024.size a ≤ S4x1024.size a
  inb_S4x2048x1024_S1x2048x1024_1_0_0 : ∀ a, (![1, 0, 0] : Fin 3 → Nat) a + S1x2048x1024.size a ≤ S4x2048x1024.size a
  inb_S4x1024_S1x1024_1_0 : ∀ a, (![1, 0] : Fin 2 → Nat) a + S1x1024.size a ≤ S4x1024.size a
  inb_S4x2048x1024_S1x2048x1024_2_0_0 : ∀ a, (![2, 0, 0] : Fin 3 → Nat) a + S1x2048x1024.size a ≤ S4x2048x1024.size a
  inb_S4x1024_S1x1024_2_0 : ∀ a, (![2, 0] : Fin 2 → Nat) a + S1x1024.size a ≤ S4x1024.size a
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x2048x1024.size a ≤ S4x2048x1024.size a
  hwx0_3 : ∀ i : grid0.Coords, EltTy.bits .bf16 = 32 ∨ (Rect.block (s := S4x2048x1024) S4x2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024.size a ≤ S4x1024.size a
  hwx0_4 : ∀ i : grid0.Coords, EltTy.bits .f32 = 32 ∨ (Rect.block (s := S4x1024) S4x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S16384x1024.size a
  hwx0_5 : ∀ i : grid0.Coords, EltTy.bits .f32 = 32 ∨ (Rect.block (s := S16384x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4x2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S4x1024x16384 : Shape := ⟨3, ![4, 1024, 16384]⟩
abbrev S4x16384x1024 : Shape := ⟨3, ![4, 16384, 1024]⟩
abbrev S4x1x1024 : Shape := ⟨3, ![4, 1, 1024]⟩
abbrev S1x16384x1024 : Shape := ⟨3, ![1, 16384, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4x1024x16384, .f32⟩
  | .hbm, ⟨8, _⟩ => ⟨S4x16384x1024, .f32⟩
  | .hbm, ⟨9, _⟩ => ⟨S4x1x1024, .f32⟩
  | .hbm, ⟨10, _⟩ => ⟨S4x16384x1024, .f32⟩
  | .hbm, ⟨11, _⟩ => ⟨S4x16384x1024, .f32⟩
  | .hbm, ⟨12, _⟩ => ⟨S4x1024x16384, .f32⟩
  | .hbm, ⟨13, _⟩ => ⟨S4x16384x1024, .f32⟩
  | .hbm, ⟨14, _⟩ => ⟨S4x1x1024, .f32⟩
  | .hbm, ⟨15, _⟩ => ⟨S4x16384x1024, .f32⟩
  | .hbm, ⟨16, _⟩ => ⟨S4x16384x1024, .f32⟩
  | .hbm, ⟨17, _⟩ => ⟨S4x16384x1024, .f32⟩
  | .hbm, ⟨18, _⟩ => ⟨S1x16384x1024, .f32⟩
  | .hbm, ⟨19, _⟩ => ⟨S16384x1024, .f32⟩
  | .hbm, ⟨20, _⟩ => ⟨S16384x1024, .f32⟩
  | .hbm, ⟨21, _⟩ => ⟨S1x16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S1x16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S1x16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  transposes_S4x1024x16384_S4x16384x1024_0_2_1 : S4x1024x16384.Transposes [0, 2, 1] S4x16384x1024
  bcast_S4x1024_S4x1x1024_0_2 : S4x1024.BroadcastsInDim S4x1x1024 (![0, 2] : Fin 2 → Fin S4x1x1024.rank)
  bcast_S4x1x1024_S4x16384x1024_0_1_2 : S4x1x1024.BroadcastsInDim S4x16384x1024 (![0, 1, 2] : Fin 3 → Fin S4x16384x1024.rank)
  slices_S4x16384x1024_S1x16384x1024_0_0_0 : S4x16384x1024.Slices ![0, 0, 0] S1x16384x1024
  shapeCasts_S1x16384x1024_S16384x1024 : S1x16384x1024.ShapeCasts S16384x1024
  slices_S4x16384x1024_S1x16384x1024_1_0_0 : S4x16384x1024.Slices ![1, 0, 0] S1x16384x1024
  bcast_S_S16384x1024 : S_.BroadcastsInDim S16384x1024 (![] : Fin 0 → Fin S16384x1024.rank)
  slices_S4x16384x1024_S1x16384x1024_2_0_0 : S4x16384x1024.Slices ![2, 0, 0] S1x16384x1024
  slices_S4x16384x1024_S1x16384x1024_3_0_0 : S4x16384x1024.Slices ![3, 0, 0] S1x16384x1024
  dot_S4x1024x1024_S16384x1024_S4x1024x16384_2_1_01_0_n_n_wf : DotDims.WF S4x1024x1024 S16384x1024 S4x1024x16384 [2] [1] [0, 1] [0] [] []

variable [Facts₀]

def dot_S4x1024x1024_S16384x1024_S4x1024x16384_2_1_01_0_n_n : DotDims S4x1024x1024 S16384x1024 S4x1024x16384 where
  lhsContracting := [2]
  rhsContracting := [1]
  lhsNonContracting := [0, 1]
  rhsNonContracting := [0]
  lhsBatch := []
  rhsBatch := []
  wf := dot_S4x1024x1024_S16384x1024_S4x1024x16384_2_1_01_0_n_n_wf

class Facts : Prop extends Facts₀ where

variable [Facts]
-- ==== Proof.Spec.lean ====
/-
  The LSTM cell as one function of its seven argument arrays, over the extended reals.

  For a batch row r and a hidden unit j, gate g (0 = candidate z, 1 = input i, 2 = forget f, 3 = output o) has the
  pre-activation
      pre g r j = (Σ_k Wx[g, j, k] · x[r, k] + bx[g, j]) + (Σ_k Rh[g, j, k] · h[r, k] + bh[g, j]),
  the new cell state is   c'[r, j] = σ(pre 2) · c[r, j] + σ(pre 1) · tanh(pre 0),
  and the new hidden state h'[r, j] = σ(pre 3) · tanh(c'[r, j]),
  with σ x = 1 / (1 + e^(-x)) the logistic function, total on the extended reals.

  The same pre-activation can be computed the fused way: one sum over the 2048 entries of the row [x[r, ·] | h[r, ·]] against
  the stacked column [Wx[g, j, ·] ; Rh[g, j, ·]], plus the pre-summed bias bx + bh. That this is the same number needs only
  that + and · on the extended reals are commutative and + associative (no cancellation, no distributivity), so it holds
  at the infinities as well: gatePre_fused.
-/
import Idealize.ShloMosaic.PureOps.Ideal
import Idealize.ShloMosaic.Lib.ValueIdx

noncomputable section

namespace Cert.LstmCell

open Idealize.ShloMosaic Idealize.ShloMosaic.ValueIdx

/-- A [16384, 1024] array of extended reals: the batch of inputs, of hidden states, of cell states. -/
abbrev Rows : Type := (⟨2, ![16384, 1024]⟩ : Shape).Idx → EReal
/-- A [4, 1024, 1024] array: one [hidden unit, contracted index] weight matrix per gate. -/
abbrev Weights : Type := (⟨3, ![4, 1024, 1024]⟩ : Shape).Idx → EReal
/-- A [4, 1024] array: one bias row per gate. -/
abbrev Biases : Type := (⟨2, ![4, 1024]⟩ : Shape).Idx → EReal

/-- Gate g's pre-activation at batch row r and hidden unit j: the input projection plus its bias, plus the recurrent
    projection plus its bias. -/
def gatePre (x h : Rows) (Wx Rh : Weights) (bx bh : Biases) (g : Fin 4) (r : Fin 16384) (j : Fin 1024) : EReal :=
  ((∑ k : Fin 1024, Wx (ix3 g j k) * x (ix2 r k)) + bx (ix2 g j))
    + ((∑ k : Fin 1024, Rh (ix3 g j k) * h (ix2 r k)) + bh (ix2 g j))

/-- The new cell state: forget gate times the old cell state plus input gate times the candidate. -/
def cellNew (x h c : Rows) (Wx Rh : Weights) (bx bh : Biases) : Rows := fun i =>
  Ideal.logistic (gatePre x h Wx Rh bx bh 2 (i 0) (i 1)) * c i
    + Ideal.logistic (gatePre x h Wx Rh bx bh 1 (i 0) (i 1)) * Ideal.tanh (gatePre x h Wx Rh bx bh 0 (i 0) (i 1))

/-- The new hidden state: output gate times tanh of the new cell state. -/
def hidNew (x h c : Rows) (Wx Rh : Weights) (bx bh : Biases) : Rows := fun i =>
  Ideal.logistic (gatePre x h Wx Rh bx bh 3 (i 0) (i 1)) * Ideal.tanh (cellNew x h c Wx Rh bx bh i)

/-- The fused arrangement — both projections' products summed together, the two biases summed first — is the same
    pre-activation: the products commute, and (A + B) + (p + q) = (A + p) + (B + q) in any commutative monoid. -/
theorem gatePre_fused (x h : Rows) (Wx Rh : Weights) (bx bh : Biases) (g : Fin 4) (r : Fin 16384) (j : Fin 1024) :
    ((∑ k : Fin 1024, x (ix2 r k) * Wx (ix3 g j k)) + (∑ k : Fin 1024, h (ix2 r k) * Rh (ix3 g j k)))
      + (bx (ix2 g j) + bh (ix2 g j)) = gatePre x h Wx Rh bx bh g r j := by
  unfold gatePre
  have e1 : (∑ k : Fin 1024, x (ix2 r k) * Wx (ix3 g j k)) = ∑ k : Fin 1024, Wx (ix3 g j k) * x (ix2 r k) :=
    Finset.sum_congr rfl fun k _ => mul_comm _ _
  have e2 : (∑ k : Fin 1024, h (ix2 r k) * Rh (ix3 g j k)) = ∑ k : Fin 1024, Rh (ix3 g j k) * h (ix2 r k) :=
    Finset.sum_congr rfl fun k _ => mul_comm _ _
  rw [e1, e2, add_add_add_comm]

/-- A sum over 2048 indices is the sum over the first 1024 plus the sum over the last 1024. -/
theorem sum_halves {M : Type*} [AddCommMonoid M] (f : Fin 2048 → M) :
    ∑ k : Fin 2048, f k = (∑ k : Fin 1024, f ⟨k.val, by omega⟩) + ∑ k : Fin 1024, f ⟨1024 + k.val, by omega⟩ :=
  Fin.sum_univ_add (a := 1024) (b := 1024) f

/-- The single-precision word 0x3F800000 is the number one. -/
theorem one_f32 : Ideal.ofBits .f32 0x3F800000#32 = 1 := by
  simp [Ideal.ofBits, Ideal.ieee, -EReal.coe_mul]; norm_num

end Cert.LstmCell

end
-- ==== Proof.Gate.lean ====
/-
  One gate's pre-activation inside one block of 256 batch rows, read at an index.

  The kernel body forms the row [x[p, ·] | h[p, ·]] of 2048 entries (the two loaded blocks side by side; the change of float
  format is the identity on the extended reals), multiplies it into a [2048, 1024] slab of the stacked weights starting from
  zero, and adds the slab's bias row broadcast over the 256 rows. At row p and column q this is
      Σ_{k < 1024} x[p, k] · w[0, k, q]  +  Σ_{k < 1024} h[p, k] · w[0, 1024 + k, q]  +  b[0, q]:
  the product into zero is the plain sum over the 2048 contracted positions, which splits into its two halves, and in each half
  the concatenated row reads the block it came from.
-/
import proofs.«114698_j45140106281360_2_alg».proof.Proof.Gen.KernelIdeal.Skeleton
import proofs.«114698_j45140106281360_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gate

open Cert.KernelIdeal Cert.KernelIdeal.Gen Cert.LstmCell
open Idealize.ShloMosaic Idealize.ShloMosaic.ValueIdx

/-! ## The product's operand indices: row of the left operand, column of the right, the contracted position shared -/

theorem lhs_row (i : S256x1024.Idx) (q : dot_S256x2048_S2048x1024_S256x1024_1_0_0_1_n_n.contr.Idx) : (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl

theorem lhs_contr (i : S256x1024.Idx) (q : dot_S256x2048_S2048x1024_S256x1024_1_0_0_1_n_n.contr.Idx) : (dot_S256x2048_S2048x1024_S256x1024_1_0_0_1_n_n.lhsIdx i q 1).val = (q ⟨0, by decide⟩).val :=
  dot_S256x2048_S2048x1024_S256x1024_1_0_0_1_n_n.lhsIdx_val_of_single rfl i q

theorem rhs_contr (i : S256x1024.Idx) (q : dot_S256x2048_S2048x1024_S256x1024_1_0_0_1_n_n.contr.Idx) : (dot_S256x2048_S2048x1024_S256x1024_1_0_0_1_n_n.rhsIdx i q 0).val = (q ⟨0, by decide⟩).val :=
  dot_S256x2048_S2048x1024_S256x1024_1_0_0_1_n_n.rhsIdx_val_of_single rfl i q

theorem rhs_col (i : S256x1024.Idx) (q : dot_S256x2048_S2048x1024_S256x1024_1_0_0_1_n_n.contr.Idx) : (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- A [256, 2048] by [2048, 1024] product accumulated into zero, at (p, q): the sum over the contracted position k of
    a[p, k] · w[k, q]. -/
theorem matmul_zero_apply (a : FVec Ideal S256x2048 .bf16) (w : FVec Ideal S2048x1024 .bf16) (p : Fin 256) (q : Fin 1024) :
    matmul dot_S256x2048_S2048x1024_S256x1024_1_0_0_1_n_n none a w (constant (F := Ideal) S256x1024 .f32 0x00000000#32) (ix2 p q)
      = ∑ k : Fin 2048, a (ix2 p k) * w (ix2 k q) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p q) ((contrEquiv1 dot_S256x2048_S2048x1024_S256x1024_1_0_0_1_n_n 2048 rfl rfl).symm k) = ix2 p k := funext fun a => Fin.ext (by
    match a with
    | ⟨0, _⟩ => exact lhs_row _ _
    | ⟨1, _⟩ => exact (lhs_contr _ _).trans hk)
  have er : dot_S256x2048_S2048x1024_S256x1024_1_0_0_1_n_n.rhsIdx (ix2 p q) ((contrEquiv1 dot_S256x2048_S2048x1024_S256x1024_1_0_0_1_n_n 2048 rfl rfl).symm k) = ix2 k q := funext fun a => Fin.ext (by
    match a with
    | ⟨0, _⟩ => exact (rhs_contr _ _).trans hk
    | ⟨1, _⟩ => exact rhs_col _ _)
  rw [el, er]

/-! ## The concatenated row -/

/-- In its first 1024 positions the row [x | h] reads x. -/
theorem row_left (x h : Vec Ideal S256x1024 .f32) (p : Fin 256) (k : Fin 1024) :
    k0_pay3 x h (ix2 p (⟨k.val, by omega⟩ : Fin 2048)) = x (ix2 p k) := by
  unfold k0_pay3
  exact concatenate_pair_apply_left 1 _ _ concatenates_S256x1024_S256x1024_S256x2048_d1 (ix2 p (⟨k.val, by omega⟩ : Fin 2048)) rfl (ix2 p k)
    (fun b => by
      match b with
      | ⟨0, _⟩ => rfl
      | ⟨1, _⟩ => rfl)

/-- In its last 1024 positions the row [x | h] reads h. -/
theorem row_right (x h : Vec Ideal S256x1024 .f32) (p : Fin 256) (k : Fin 1024) :
    k0_pay3 x h (ix2 p (⟨1024 + k.val, by omega⟩ : Fin 2048)) = h (ix2 p k) := by
  unfold k0_pay3
  exact concatenate_pair_apply_right 1 _ _ concatenates_S256x1024_S256x1024_S256x2048_d1 (ix2 p (⟨1024 + k.val, by omega⟩ : Fin 2048)) rfl rfl (ix2 p k)
    (fun b hb => by
      match b with
      | ⟨0, _⟩ => rfl
      | ⟨1, _⟩ => exact absurd rfl hb)
    (by show k.val + 1024 = 1024 + k.val; omega)

/-! ## The gate -/

/-- The fused pre-activation inside a block: the two half-sums against the two halves of the weight slab, plus the slab's
    bias row. -/
def blockPre (x h : Vec Ideal S256x1024 .f32) (w : FVec Ideal S1x2048x1024 .bf16) (b : Vec Ideal S1x1024 .f32)
    (p : Fin 256) (q : Fin 1024) : EReal :=
  ((∑ k : Fin 1024, x (ix2 p k) * w (ix3 (0 : Fin 1) (⟨k.val, by omega⟩ : Fin 2048) q))
    + ∑ k : Fin 1024, h (ix2 p k) * w (ix3 (0 : Fin 1) (⟨1024 + k.val, by omega⟩ : Fin 2048) q))
    + b (ix2 (0 : Fin 1) q)

/-- What the body computes before a gate's nonlinearity, at (p, q), is that pre-activation. -/
theorem gate_apply (x h : Vec Ideal S256x1024 .f32) (w : FVec Ideal S1x2048x1024 .bf16) (b : Vec Ideal S1x1024 .f32)
    (p : Fin 256) (q : Fin 1024) :
    addf (matmul dot_S256x2048_S2048x1024_S256x1024_1_0_0_1_n_n none (k0_pay3 x h) (shapeCast S2048x1024 w shapeCasts_S1x2048x1024_S2048x1024)
        (constant (F := Ideal) S256x1024 .f32 0x00000000#32))
      (broadcastTo S256x1024 (shapeCast S1x1024 (shapeCast S1024 b shapeCasts_S1x1024_S1024) shapeCasts_S1024_S1x1024)
        broadcasts_S1x1024_S256x1024) (ix2 p q)
      = blockPre x h w b p q := by
  rw [addf_apply, matmul_zero_apply, shapeCast_shapeCast, broadcastTo_1b_ab_apply, sum_halves]
  simp only [row_left, row_right, shapeCast_1ab_ab_apply]
  rfl

end Cert.KernelIdeal.Gate

end
-- ==== Proof.Payload.lean ====
/-
  What one grid point's body stores, read at an index of the 256 by 1024 block, over the extended reals.

  With pre_g the fused pre-activation of gate g inside the block (Gate.lean), the stored new cell state is
      σ(pre_2) · c + σ(pre_1) · tanh(pre_0)
  and the stored new hidden state is σ(pre_3) · tanh of that: the body's remaining operations act entry by entry.
-/
import proofs.«114698_j45140106281360_2_alg».proof.Proof.Gate
import proofs.«114698_j45140106281360_2_alg».proof.Proof.Spec

noncomputable section

namespace Cert.KernelIdeal.Payload

open Cert.KernelIdeal Cert.KernelIdeal.Gen Cert.KernelIdeal.Gate Cert.LstmCell
open Idealize.ShloMosaic Idealize.ShloMosaic.ValueIdx

/-- The output gate's activation at (p, q). -/
theorem outGate_apply (x h : Vec Ideal S256x1024 .f32) (w : FVec Ideal S1x2048x1024 .bf16) (b : Vec Ideal S1x1024 .f32) (p : Fin 256) (q : Fin 1024) :
    k0_pay4 x h w b (ix2 p q) = Ideal.logistic (blockPre x h w b p q) := by
  unfold k0_pay4
  exact congrArg Ideal.logistic (gate_apply x h w b p q)

/-- The candidate's activation at (p, q). -/
theorem cand_apply (x h : Vec Ideal S256x1024 .f32) (w : FVec Ideal S1x2048x1024 .bf16) (b : Vec Ideal S1x1024 .f32) (p : Fin 256) (q : Fin 1024) :
    k0_pay5 x h w b (ix2 p q) = Ideal.tanh (blockPre x h w b p q) := by
  unfold k0_pay5
  exact congrArg Ideal.tanh (gate_apply x h w b p q)

/-- The input gate's activation at (p, q). -/
theorem inGate_apply (x h : Vec Ideal S256x1024 .f32) (w : FVec Ideal S1x2048x1024 .bf16) (b : Vec Ideal S1x1024 .f32) (p : Fin 256) (q : Fin 1024) :
    k0_pay6 x h w b (ix2 p q) = Ideal.logistic (blockPre x h w b p q) := by
  unfold k0_pay6
  exact congrArg Ideal.logistic (gate_apply x h w b p q)

/-- The block's new cell state at (p, q), from the three weight slabs and bias rows of the candidate, input and forget
    gates. -/
def blockCell (x h c : Vec Ideal S256x1024 .f32) (w0 : FVec Ideal S1x2048x1024 .bf16) (b0 : Vec Ideal S1x1024 .f32) (w1 : FVec Ideal S1x2048x1024 .bf16) (b1 : Vec Ideal S1x1024 .f32) (w2 : FVec Ideal S1x2048x1024 .bf16) (b2 : Vec Ideal S1x1024 .f32) (p : Fin 256) (q : Fin 1024) : EReal :=
  Ideal.logistic (blockPre x h w2 b2 p q) * c (ix2 p q)
    + Ideal.logistic (blockPre x h w1 b1 p q) * Ideal.tanh (blockPre x h w0 b0 p q)

/-- The forget gate applied to the old cell state plus the product of two given activations, at (p, q). -/
theorem cellOf_apply (c x h : Vec Ideal S256x1024 .f32) (z i : FVec Ideal S256x1024 .f32)
    (w : FVec Ideal S1x2048x1024 .bf16) (b : Vec Ideal S1x1024 .f32) (p : Fin 256) (q : Fin 1024) :
    k0_pay1 c (k0_pay3 x h) z i w b (ix2 p q)
      = Ideal.logistic (blockPre x h w b p q) * c (ix2 p q) + i (ix2 p q) * z (ix2 p q) := by
  unfold k0_pay1
  exact congrArg (fun e => Ideal.logistic e * c (ix2 p q) + i (ix2 p q) * z (ix2 p q)) (gate_apply x h w b p q)

/-- What the body stores as the new cell state, at (p, q). -/
theorem cell_apply (x h c : Vec Ideal S256x1024 .f32) (w0 : FVec Ideal S1x2048x1024 .bf16) (b0 : Vec Ideal S1x1024 .f32) (w1 : FVec Ideal S1x2048x1024 .bf16) (b1 : Vec Ideal S1x1024 .f32) (w2 : FVec Ideal S1x2048x1024 .bf16) (b2 : Vec Ideal S1x1024 .f32) (p : Fin 256) (q : Fin 1024) :
    k0_pay1 c (k0_pay3 x h) (k0_pay5 x h w0 b0) (k0_pay6 x h w1 b1) w2 b2 (ix2 p q)
      = blockCell x h c w0 b0 w1 b1 w2 b2 p q := by
  rw [cellOf_apply, cand_apply, inGate_apply]
  rfl

/-- What the body stores as the new hidden state, at (p, q). -/
theorem hid_apply (x h c : Vec Ideal S256x1024 .f32) (w0 : FVec Ideal S1x2048x1024 .bf16) (b0 : Vec Ideal S1x1024 .f32) (w1 : FVec Ideal S1x2048x1024 .bf16) (b1 : Vec Ideal S1x1024 .f32) (w2 : FVec Ideal S1x2048x1024 .bf16) (b2 : Vec Ideal S1x1024 .f32) (w3 : FVec Ideal S1x2048x1024 .bf16) (b3 : Vec Ideal S1x1024 .f32) (p : Fin 256) (q : Fin 1024) :
    k0_pay2 c (k0_pay3 x h) (k0_pay4 x h w3 b3) (k0_pay5 x h w0 b0) (k0_pay6 x h w1 b1) w2 b2 (ix2 p q)
      = Ideal.logistic (blockPre x h w3 b3 p q) * Ideal.tanh (blockCell x h c w0 b0 w1 b1 w2 b2 p q) := by
  unfold k0_pay2
  show k0_pay4 x h w3 b3 (ix2 p q) * Ideal.tanh (k0_pay1 c (k0_pay3 x h) (k0_pay5 x h w0 b0) (k0_pay6 x h w1 b1) w2 b2 (ix2 p q)) = _
  rw [outGate_apply, cell_apply]

/-! ## From a block to the whole arrays -/

/-- When the block's two row blocks are rows r of the whole x and h, the slab's two halves are gate g's Wx and Rh with
    their last two axes exchanged, and the bias row is bx + bh at gate g, the fused pre-activation inside the block is the
    cell's pre-activation of gate g at row r: the law of Spec.lean. -/
theorem blockPre_eq (X H : Rows) (Wx Rh : Weights) (bx bh : Biases)
    (xb hb : Vec Ideal S256x1024 .f32) (w : FVec Ideal S1x2048x1024 .bf16) (b : Vec Ideal S1x1024 .f32)
    (g : Fin 4) (r : Fin 16384) (p : Fin 256) (q : Fin 1024)
    (hx : ∀ k : Fin 1024, xb (ix2 p k) = X (ix2 r k))
    (hh : ∀ k : Fin 1024, hb (ix2 p k) = H (ix2 r k))
    (hwu : ∀ k : Fin 1024, w (ix3 (0 : Fin 1) (⟨k.val, by omega⟩ : Fin 2048) q) = Wx (ix3 g q k))
    (hwl : ∀ k : Fin 1024, w (ix3 (0 : Fin 1) (⟨1024 + k.val, by omega⟩ : Fin 2048) q) = Rh (ix3 g q k))
    (hbias : b (ix2 (0 : Fin 1) q) = bx (ix2 g q) + bh (ix2 g q)) :
    blockPre xb hb w b p q = gatePre X H Wx Rh bx bh g r q := by
  unfold blockPre
  simp only [hx, hh, hwu, hwl, hbias]
  exact gatePre_fused X H Wx Rh bx bh g r q

end Cert.KernelIdeal.Payload

end
-- ==== Proof.HostArrays.lean ====
/-
  The two arrays the program prepares before the grid runs, read at an index.

  The stacked weights: each gate's Wx and Rh are transposed to [contracted index, hidden unit] and laid one above the other
  along the contracted axis, so the [4, 2048, 1024] stack holds
      stack[g, k, q] = Wx[g, q, k]   and   stack[g, 1024 + k, q] = Rh[g, q, k]      (k < 1024);
  the change of float format in between is the identity on the extended reals. The pre-summed bias holds bx[g, q] + bh[g, q].
-/
import proofs.«114698_j45140106281360_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostArrays

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## The seven argument arrays at launch, each at its literal shape -/

abbrev argX (c : Dev nD) : FVec Ideal S16384x1024 .f32 := m ((c : Thread nD τ).loc main_arg0)
abbrev argH (c : Dev nD) : FVec Ideal S16384x1024 .f32 := m ((c : Thread nD τ).loc main_arg1)
abbrev argC (c : Dev nD) : FVec Ideal S16384x1024 .f32 := m ((c : Thread nD τ).loc main_arg2)
abbrev argWx (c : Dev nD) : FVec Ideal S4x1024x1024 .f32 := m ((c : Thread nD τ).loc main_arg3)
abbrev argBx (c : Dev nD) : FVec Ideal S4x1024 .f32 := m ((c : Thread nD τ).loc main_arg4)
abbrev argRh (c : Dev nD) : FVec Ideal S4x1024x1024 .f32 := m ((c : Thread nD τ).loc main_arg5)
abbrev argBh (c : Dev nD) : FVec Ideal S4x1024 .f32 := m ((c : Thread nD τ).loc main_arg6)

/-! ## What the grid finds in the two prepared arrays -/

/-- The stacked weights as the grid finds them: the two transposed weight arrays, one above the other. -/
theorem stack_eq (c : Dev nD) :
    (V m c main_v4 : FVec Ideal S4x2048x1024 .bf16) = concatenate S4x2048x1024 1
      [⟨S4x1024x1024, truncf .bf16 (transpose S4x1024x1024 [0, 2, 1] (argWx m c) transposes_S4x1024x1024_S4x1024x1024_0_2_1) bitsLt_bf16_f32⟩,
       ⟨S4x1024x1024, truncf .bf16 (transpose S4x1024x1024 [0, 2, 1] (argRh m c) transposes_S4x1024x1024_S4x1024x1024_0_2_1) bitsLt_bf16_f32⟩]
      concatenates_S4x1024x1024_S4x1024x1024_S4x2048x1024_d1 := by
  unfold V; after_results

/-- The upper half of the stack is Wx with its last two axes exchanged. -/
theorem stack_upper (c : Dev nD) (g : Fin 4) (k q : Fin 1024) :
    (V m c main_v4 : FVec Ideal S4x2048x1024 .bf16) (ix3 g (⟨k.val, by omega⟩ : Fin 2048) q) = argWx m c (ix3 g q k) := by
  rw [stack_eq]
  refine (concatenate_pair_apply_left 1 _ _ concatenates_S4x1024x1024_S4x1024x1024_S4x2048x1024_d1 (ix3 g (⟨k.val, by omega⟩ : Fin 2048) q) rfl (ix3 g k q)
    (fun b => by
      match b with
      | ⟨0, _⟩ => rfl
      | ⟨1, _⟩ => rfl
      | ⟨2, _⟩ => rfl)).trans ?_
  exact transpose_ix3_021_apply _ transposes_S4x1024x1024_S4x1024x1024_0_2_1 g k q

/-- The lower half of the stack is Rh with its last two axes exchanged. -/
theorem stack_lower (c : Dev nD) (g : Fin 4) (k q : Fin 1024) :
    (V m c main_v4 : FVec Ideal S4x2048x1024 .bf16) (ix3 g (⟨1024 + k.val, by omega⟩ : Fin 2048) q) = argRh m c (ix3 g q k) := by
  rw [stack_eq]
  refine (concatenate_pair_apply_right 1 _ _ concatenates_S4x1024x1024_S4x1024x1024_S4x2048x1024_d1 (ix3 g (⟨1024 + k.val, by omega⟩ : Fin 2048) q) rfl rfl (ix3 g k q)
    (fun b hb => by
      match b with
      | ⟨0, _⟩ => rfl
      | ⟨1, _⟩ => exact absurd rfl hb
      | ⟨2, _⟩ => rfl)
    (by show k.val + 1024 = 1024 + k.val; omega)).trans ?_
  exact transpose_ix3_021_apply _ transposes_S4x1024x1024_S4x1024x1024_0_2_1 g k q

/-- The pre-summed bias as the grid finds it. -/
theorem bias_eq (c : Dev nD) :
    (V m c main_v5 : FVec Ideal S4x1024 .f32) = addf (argBx m c) (argBh m c) := by
  unfold V; after_results

/-- At (g, q) it is bx[g, q] + bh[g, q]. -/
theorem bias_apply (c : Dev nD) (g : Fin 4) (q : Fin 1024) :
    (V m c main_v5 : FVec Ideal S4x1024 .f32) (ix2 g q) = argBx m c (ix2 g q) + argBh m c (ix2 g q) := by
  rw [bias_eq]
  rfl

end Cert.KernelIdeal.HostArrays

end
-- ==== Proof.Blocks.lean ====
/-
  From what each grid point writes back to the two whole result arrays.

  The grid has 64 points; point t works on batch rows 256 t … 256 t + 255: the x, h and c blocks it is given are those rows of
  the argument arrays, the stacked weights and the summed bias are given whole at every point, and the two blocks it writes
  back are those rows of the two results. So what point t writes back is block t of the LSTM cell of Spec.lean applied to the
  argument arrays (the fused pre-activation inside the block is the cell's, Payload.lean), the 64 blocks cover every row, and
  each result array ends holding the cell's function of the arguments.
-/
import proofs.«114698_j45140106281360_2_alg».proof.Proof.Gen.KernelIdeal.Value
import proofs.«114698_j45140106281360_2_alg».proof.Proof.Payload
import proofs.«114698_j45140106281360_2_alg».proof.Proof.HostArrays

noncomputable section

namespace Cert.KernelIdeal.Blocks

open Cert.KernelIdeal Cert.KernelIdeal.Gen Cert.KernelIdeal.Gate Cert.KernelIdeal.Payload Cert.KernelIdeal.HostArrays Cert.LstmCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The grid has 64 points. -/
theorem point_lt (t : Fin cfg0.N) : t.val < 64 := lt_of_lt_of_eq t.isLt N_0

/-- Row p of point t's block is batch row 256 t + p. -/
def rowOf (t : Fin cfg0.N) (p : Fin 256) : Fin 16384 :=
  ⟨256 * t.val + p.val, by have := point_lt t; have := p.isLt; omega⟩

/-- The block index of every window at point t, decided over the 64 points: the three row-blocked inputs and the two results
    move with the point along the batch axis; the stacked weights and the summed bias stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks at a point, read off the arrays the grid finds -/

/-- Point t's x block is rows 256 t … of x. -/
theorem xblk_apply (c : Dev nD) (t : Fin cfg0.N) (p : Fin 256) (k : Fin 1024) :
    (iblk m c 0 t : Vec Ideal S256x1024 .f32) (ix2 p k) = argX m c (ix2 (rowOf t p) k) := by
  show V m c main_arg0 (((cfg0.win 0).blk t).view.emb (ix2 p k)) = _
  rw [V_main_arg0]
  refine congrArg (argX m c) (funext fun a => Fin.ext ?_)
  obtain ⟨e00, e01, e10, e11, e20, e21, -⟩ := idx_facts t
  match a with
  | ⟨0, _⟩ => show win0_0.index t (0 : Fin 2) * 256 + 1 * p.val = 256 * t.val + p.val; omega
  | ⟨1, _⟩ => show win0_0.index t (1 : Fin 2) * 1024 + 1 * k.val = k.val; omega

/-- Point t's h block is rows 256 t … of h. -/
theorem hblk_apply (c : Dev nD) (t : Fin cfg0.N) (p : Fin 256) (k : Fin 1024) :
    (iblk m c 1 t : Vec Ideal S256x1024 .f32) (ix2 p k) = argH m c (ix2 (rowOf t p) k) := by
  show V m c main_arg1 (((cfg0.win 1).blk t).view.emb (ix2 p k)) = _
  rw [V_main_arg1]
  refine congrArg (argH m c) (funext fun a => Fin.ext ?_)
  obtain ⟨e00, e01, e10, e11, e20, e21, -⟩ := idx_facts t
  match a with
  | ⟨0, _⟩ => show win0_1.index t (0 : Fin 2) * 256 + 1 * p.val = 256 * t.val + p.val; omega
  | ⟨1, _⟩ => show win0_1.index t (1 : Fin 2) * 1024 + 1 * k.val = k.val; omega

/-- Point t's c block is rows 256 t … of c. -/
theorem cblk_apply (c : Dev nD) (t : Fin cfg0.N) (p : Fin 256) (k : Fin 1024) :
    (iblk m c 2 t : Vec Ideal S256x1024 .f32) (ix2 p k) = argC m c (ix2 (rowOf t p) k) := by
  show V m c main_arg2 (((cfg0.win 2).blk t).view.emb (ix2 p k)) = _
  rw [V_main_arg2]
  refine congrArg (argC m c) (funext fun a => Fin.ext ?_)
  obtain ⟨e00, e01, e10, e11, e20, e21, -⟩ := idx_facts t
  match a with
  | ⟨0, _⟩ => show win0_2.index t (0 : Fin 2) * 256 + 1 * p.val = 256 * t.val + p.val; omega
  | ⟨1, _⟩ => show win0_2.index t (1 : Fin 2) * 1024 + 1 * k.val = k.val; omega

/-- Every point is given the whole stack of weights. -/
theorem wblk_apply (c : Dev nD) (t : Fin cfg0.N) (g : Fin 4) (K : Fin 2048) (q : Fin 1024) :
    (iblk m c 3 t : FVec Ideal S4x2048x1024 .bf16) (ix3 g K q) = (V m c main_v4 : FVec Ideal S4x2048x1024 .bf16) (ix3 g K q) := by
  show V m c main_v4 (((cfg0.win 3).blk t).view.emb (ix3 g K q)) = _
  refine congrArg (V m c main_v4 : FVec Ideal S4x2048x1024 .bf16) (funext fun a => Fin.ext ?_)
  obtain ⟨-, -, -, -, -, -, e30, e31, e32, -⟩ := idx_facts t
  match a with
  | ⟨0, _⟩ => show win0_3.index t (0 : Fin 3) * 4 + 1 * g.val = g.val; omega
  | ⟨1, _⟩ => show win0_3.index t (1 : Fin 3) * 2048 + 1 * K.val = K.val; omega
  | ⟨2, _⟩ => show win0_3.index t (2 : Fin 3) * 1024 + 1 * q.val = q.val; omega

/-- Every point is given the whole summed bias. -/
theorem bblk_apply (c : Dev nD) (t : Fin cfg0.N) (g : Fin 4) (q : Fin 1024) :
    (iblk m c 4 t : FVec Ideal S4x1024 .f32) (ix2 g q) = (V m c main_v5 : FVec Ideal S4x1024 .f32) (ix2 g q) := by
  show V m c main_v5 (((cfg0.win 4).blk t).view.emb (ix2 g q)) = _
  refine congrArg (V m c main_v5 : FVec Ideal S4x1024 .f32) (funext fun a => Fin.ext ?_)
  obtain ⟨-, -, -, -, -, -, -, -, -, e40, e41, -⟩ := idx_facts t
  match a with
  | ⟨0, _⟩ => show win0_4.index t (0 : Fin 2) * 4 + 1 * g.val = g.val; omega
  | ⟨1, _⟩ => show win0_4.index t (1 : Fin 2) * 1024 + 1 * q.val = q.val; omega

/-! ## The slabs and bias rows the body loads from them -/

/-- Gate 0's weight slab, as the body loads it, is the stack at gate 0. -/
theorem slab0_apply (W : Vec Ideal S4x2048x1024 .bf16) (K : Fin 2048) (q : Fin 1024) :
    View.ld (Val := Elt Ideal) W r0_3 (ix3 (0 : Fin 1) K q) = W (ix3 (0 : Fin 4) K q) := by
  show W (r0_3.idx (ix3 (0 : Fin 1) K q)) = _
  refine congrArg W (funext fun a => Fin.ext ?_)
  match a with
  | ⟨0, _⟩ => show 0 + 1 * 0 = 0; omega
  | ⟨1, _⟩ => show 0 + 1 * K.val = K.val; omega
  | ⟨2, _⟩ => show 0 + 1 * q.val = q.val; omega

/-- Gate 0's bias row, as the body loads it, is the summed bias at gate 0. -/
theorem brow0_apply (B : Vec Ideal S4x1024 .f32) (q : Fin 1024) :
    View.ld (Val := Elt Ideal) B r0_4 (ix2 (0 : Fin 1) q) = B (ix2 (0 : Fin 4) q) := by
  show B (r0_4.idx (ix2 (0 : Fin 1) q)) = _
  refine congrArg B (funext fun a => Fin.ext ?_)
  match a with
  | ⟨0, _⟩ => show 0 + 1 * 0 = 0; omega
  | ⟨1, _⟩ => show 0 + 1 * q.val = q.val; omega

/-- Gate 1's weight slab, as the body loads it, is the stack at gate 1. -/
theorem slab1_apply (W : Vec Ideal S4x2048x1024 .bf16) (K : Fin 2048) (q : Fin 1024) :
    View.ld (Val := Elt Ideal) W r0_5 (ix3 (0 : Fin 1) K q) = W (ix3 (1 : Fin 4) K q) := by
  show W (r0_5.idx (ix3 (0 : Fin 1) K q)) = _
  refine congrArg W (funext fun a => Fin.ext ?_)
  match a with
  | ⟨0, _⟩ => show 1 + 1 * 0 = 1; omega
  | ⟨1, _⟩ => show 0 + 1 * K.val = K.val; omega
  | ⟨2, _⟩ => show 0 + 1 * q.val = q.val; omega

/-- Gate 1's bias row, as the body loads it, is the summed bias at gate 1. -/
theorem brow1_apply (B : Vec Ideal S4x1024 .f32) (q : Fin 1024) :
    View.ld (Val := Elt Ideal) B r0_6 (ix2 (0 : Fin 1) q) = B (ix2 (1 : Fin 4) q) := by
  show B (r0_6.idx (ix2 (0 : Fin 1) q)) = _
  refine congrArg B (funext fun a => Fin.ext ?_)
  match a with
  | ⟨0, _⟩ => show 1 + 1 * 0 = 1; omega
  | ⟨1, _⟩ => show 0 + 1 * q.val = q.val; omega

/-- Gate 2's weight slab, as the body loads it, is the stack at gate 2. -/
theorem slab2_apply (W : Vec Ideal S4x2048x1024 .bf16) (K : Fin 2048) (q : Fin 1024) :
    View.ld (Val := Elt Ideal) W r0_7 (ix3 (0 : Fin 1) K q) = W (ix3 (2 : Fin 4) K q) := by
  show W (r0_7.idx (ix3 (0 : Fin 1) K q)) = _
  refine congrArg W (funext fun a => Fin.ext ?_)
  match a with
  | ⟨0, _⟩ => show 2 + 1 * 0 = 2; omega
  | ⟨1, _⟩ => show 0 + 1 * K.val = K.val; omega
  | ⟨2, _⟩ => show 0 + 1 * q.val = q.val; omega

/-- Gate 2's bias row, as the body loads it, is the summed bias at gate 2. -/
theorem brow2_apply (B : Vec Ideal S4x1024 .f32) (q : Fin 1024) :
    View.ld (Val := Elt Ideal) B r0_8 (ix2 (0 : Fin 1) q) = B (ix2 (2 : Fin 4) q) := by
  show B (r0_8.idx (ix2 (0 : Fin 1) q)) = _
  refine congrArg B (funext fun a => Fin.ext ?_)
  match a with
  | ⟨0, _⟩ => show 2 + 1 * 0 = 2; omega
  | ⟨1, _⟩ => show 0 + 1 * q.val = q.val; omega

/-- Gate 3's weight slab, as the body loads it, is the stack at gate 3. -/
theorem slab3_apply (W : Vec Ideal S4x2048x1024 .bf16) (K : Fin 2048) (q : Fin 1024) :
    View.ld (Val := Elt Ideal) W r0_1 (ix3 (0 : Fin 1) K q) = W (ix3 (3 : Fin 4) K q) := by
  show W (r0_1.idx (ix3 (0 : Fin 1) K q)) = _
  refine congrArg W (funext fun a => Fin.ext ?_)
  match a with
  | ⟨0, _⟩ => show 3 + 1 * 0 = 3; omega
  | ⟨1, _⟩ => show 0 + 1 * K.val = K.val; omega
  | ⟨2, _⟩ => show 0 + 1 * q.val = q.val; omega

/-- Gate 3's bias row, as the body loads it, is the summed bias at gate 3. -/
theorem brow3_apply (B : Vec Ideal S4x1024 .f32) (q : Fin 1024) :
    View.ld (Val := Elt Ideal) B r0_2 (ix2 (0 : Fin 1) q) = B (ix2 (3 : Fin 4) q) := by
  show B (r0_2.idx (ix2 (0 : Fin 1) q)) = _
  refine congrArg B (funext fun a => Fin.ext ?_)
  match a with
  | ⟨0, _⟩ => show 3 + 1 * 0 = 3; omega
  | ⟨1, _⟩ => show 0 + 1 * q.val = q.val; omega

/-! ## A gate's pre-activation at a point is the cell's -/

/-- The upper half of gate g's part of the stack, as a point finds it, is Wx of gate g with its last two axes exchanged. -/
theorem stackblk_upper (c : Dev nD) (t : Fin cfg0.N) (g : Fin 4) (k q : Fin 1024) :
    (iblk m c 3 t : FVec Ideal S4x2048x1024 .bf16) (ix3 g (⟨k.val, by omega⟩ : Fin 2048) q) = argWx m c (ix3 g q k) :=
  (wblk_apply m c t g (⟨k.val, by omega⟩ : Fin 2048) q).trans (stack_upper m c g k q)

/-- The lower half is Rh of gate g with its last two axes exchanged. -/
theorem stackblk_lower (c : Dev nD) (t : Fin cfg0.N) (g : Fin 4) (k q : Fin 1024) :
    (iblk m c 3 t : FVec Ideal S4x2048x1024 .bf16) (ix3 g (⟨1024 + k.val, by omega⟩ : Fin 2048) q) = argRh m c (ix3 g q k) :=
  (wblk_apply m c t g (⟨1024 + k.val, by omega⟩ : Fin 2048) q).trans (stack_lower m c g k q)

/-- The summed bias, as a point finds it, at (g, q). -/
theorem biasblk (c : Dev nD) (t : Fin cfg0.N) (g : Fin 4) (q : Fin 1024) :
    (iblk m c 4 t : FVec Ideal S4x1024 .f32) (ix2 g q) = argBx m c (ix2 g q) + argBh m c (ix2 g q) :=
  (bblk_apply m c t g q).trans (bias_apply m c g q)

/-- Inside point t's block, the fused pre-activation against a slab and bias row that are gate g's part of the stack and of
    the summed bias is the cell's pre-activation of gate g at batch row 256 t + p. -/
theorem pre_at (c : Dev nD) (t : Fin cfg0.N) (g : Fin 4) (w : FVec Ideal S1x2048x1024 .bf16) (b : Vec Ideal S1x1024 .f32)
    (p : Fin 256) (q : Fin 1024)
    (hw : ∀ K : Fin 2048, w (ix3 (0 : Fin 1) K q) = (iblk m c 3 t : FVec Ideal S4x2048x1024 .bf16) (ix3 g K q))
    (hb : b (ix2 (0 : Fin 1) q) = (iblk m c 4 t : FVec Ideal S4x1024 .f32) (ix2 g q)) :
    blockPre (iblk m c 0 t) (iblk m c 1 t) w b p q = gatePre (argX m c) (argH m c) (argWx m c) (argRh m c) (argBx m c) (argBh m c) g (rowOf t p) q :=
  blockPre_eq (argX m c) (argH m c) (argWx m c) (argRh m c) (argBx m c) (argBh m c) (iblk m c 0 t) (iblk m c 1 t) w b g (rowOf t p) p q
    (fun k => xblk_apply m c t p k) (fun k => hblk_apply m c t p k)
    (fun k => (hw (⟨k.val, by omega⟩ : Fin 2048)).trans (stackblk_upper m c t g k q))
    (fun k => (hw (⟨1024 + k.val, by omega⟩ : Fin 2048)).trans (stackblk_lower m c t g k q))
    (hb.trans (biasblk m c t g q))

/-- The block's new cell state at (p, q) is the cell's at (256 t + p, q). -/
theorem cell_at (c : Dev nD) (t : Fin cfg0.N) (p : Fin 256) (q : Fin 1024) :
    blockCell (iblk m c 0 t) (iblk m c 1 t) (iblk m c 2 t) (View.ld (iblk m c 3 t) r0_3) (View.ld (iblk m c 4 t) r0_4) (View.ld (iblk m c 3 t) r0_5) (View.ld (iblk m c 4 t) r0_6) (View.ld (iblk m c 3 t) r0_7) (View.ld (iblk m c 4 t) r0_8) p q = cellNew (argX m c) (argH m c) (argC m c) (argWx m c) (argRh m c) (argBx m c) (argBh m c) (ix2 (rowOf t p) q) := by
  unfold blockCell
  rw [pre_at m c t 2 (View.ld (iblk m c 3 t) r0_7) (View.ld (iblk m c 4 t) r0_8) p q (fun K => slab2_apply (iblk m c 3 t) K q) (brow2_apply (iblk m c 4 t) q),
    pre_at m c t 1 (View.ld (iblk m c 3 t) r0_5) (View.ld (iblk m c 4 t) r0_6) p q (fun K => slab1_apply (iblk m c 3 t) K q) (brow1_apply (iblk m c 4 t) q),
    pre_at m c t 0 (View.ld (iblk m c 3 t) r0_3) (View.ld (iblk m c 4 t) r0_4) p q (fun K => slab0_apply (iblk m c 3 t) K q) (brow0_apply (iblk m c 4 t) q),
    cblk_apply m c t p q]
  rfl

/-- The block's new hidden state at (p, q) is the cell's at (256 t + p, q). -/
theorem hid_at (c : Dev nD) (t : Fin cfg0.N) (p : Fin 256) (q : Fin 1024) :
    Ideal.logistic (blockPre (iblk m c 0 t) (iblk m c 1 t) (View.ld (iblk m c 3 t) r0_1) (View.ld (iblk m c 4 t) r0_2) p q) * Ideal.tanh (blockCell (iblk m c 0 t) (iblk m c 1 t) (iblk m c 2 t) (View.ld (iblk m c 3 t) r0_3) (View.ld (iblk m c 4 t) r0_4) (View.ld (iblk m c 3 t) r0_5) (View.ld (iblk m c 4 t) r0_6) (View.ld (iblk m c 3 t) r0_7) (View.ld (iblk m c 4 t) r0_8) p q)
      = hidNew (argX m c) (argH m c) (argC m c) (argWx m c) (argRh m c) (argBx m c) (argBh m c) (ix2 (rowOf t p) q) := by
  rw [pre_at m c t 3 (View.ld (iblk m c 3 t) r0_1) (View.ld (iblk m c 4 t) r0_2) p q (fun K => slab3_apply (iblk m c 3 t) K q) (brow3_apply (iblk m c 4 t) q), cell_at m c t p q]
  rfl

/-! ## What a point writes back is its block of the cell -/

/-- An entry (p, q) of result window 5's block at point t sits at row 256 t + p, column q of the array. -/
theorem emb5 (t : Fin cfg0.N) (p : Fin 256) (q : Fin 1024) :
    ((cfg0.win 5).blk t).view.emb (ix2 p q) = ix2 (rowOf t p) q := by
  funext a; apply Fin.ext
  obtain ⟨-, -, -, -, -, -, -, -, -, -, -, e50, e51, e60, e61⟩ := idx_facts t
  match a with
  | ⟨0, _⟩ => show win0_5.index t (0 : Fin 2) * 256 + 1 * p.val = 256 * t.val + p.val; omega
  | ⟨1, _⟩ => show win0_5.index t (1 : Fin 2) * 1024 + 1 * q.val = q.val; omega

/-- An entry (p, q) of result window 6's block at point t sits at row 256 t + p, column q of the array. -/
theorem emb6 (t : Fin cfg0.N) (p : Fin 256) (q : Fin 1024) :
    ((cfg0.win 6).blk t).view.emb (ix2 p q) = ix2 (rowOf t p) q := by
  funext a; apply Fin.ext
  obtain ⟨-, -, -, -, -, -, -, -, -, -, -, e50, e51, e60, e61⟩ := idx_facts t
  match a with
  | ⟨0, _⟩ => show win0_6.index t (0 : Fin 2) * 256 + 1 * p.val = 256 * t.val + p.val; omega
  | ⟨1, _⟩ => show win0_6.index t (1 : Fin 2) * 1024 + 1 * q.val = q.val; omega

/-- Point t writes back, to the second result, block t of the new cell state. -/
theorem flushed_cell (c : Dev nD) (t : Fin cfg0.N) :
    (dats m 0 c).flushed 6 t = ((cfg0.win 6).blk t).view.read (Elt Ideal) (cellNew (argX m c) (argH m c) (argC m c) (argWx m c) (argRh m c) (argBx m c) (argBh m c)) := by
  rw [Value.flushed6]
  unfold out0_6
  rw [View.canon_unit_zero zero_offsets]
  simp only [View.ld_unit_zero (S := S256x1024) zero_offsets]
  funext y
  obtain ⟨p, q, rfl⟩ : ∃ (p : Fin 256) (q : Fin 1024), y = ix2 p q := ⟨y 0, y 1, eq_ix2 y⟩
  show k0_pay1 (iblk m c 2 t) (k0_pay3 (iblk m c 0 t) (iblk m c 1 t)) (k0_pay5 (iblk m c 0 t) (iblk m c 1 t) (View.ld (iblk m c 3 t) r0_3) (View.ld (iblk m c 4 t) r0_4)) (k0_pay6 (iblk m c 0 t) (iblk m c 1 t) (View.ld (iblk m c 3 t) r0_5) (View.ld (iblk m c 4 t) r0_6)) (View.ld (iblk m c 3 t) r0_7) (View.ld (iblk m c 4 t) r0_8) (ix2 p q)
    = cellNew (argX m c) (argH m c) (argC m c) (argWx m c) (argRh m c) (argBx m c) (argBh m c) (((cfg0.win 6).blk t).view.emb (ix2 p q))
  rw [emb6 t p q]
  exact (cell_apply (iblk m c 0 t) (iblk m c 1 t) (iblk m c 2 t) (View.ld (iblk m c 3 t) r0_3) (View.ld (iblk m c 4 t) r0_4) (View.ld (iblk m c 3 t) r0_5) (View.ld (iblk m c 4 t) r0_6) (View.ld (iblk m c 3 t) r0_7) (View.ld (iblk m c 4 t) r0_8) p q).trans (cell_at m c t p q)

/-- Point t writes back, to the first result, block t of the new hidden state. -/
theorem flushed_hid (c : Dev nD) (t : Fin cfg0.N) :
    (dats m 0 c).flushed 5 t = ((cfg0.win 5).blk t).view.read (Elt Ideal) (hidNew (argX m c) (argH m c) (argC m c) (argWx m c) (argRh m c) (argBx m c) (argBh m c)) := by
  rw [Value.flushed5]
  unfold out0_5
  rw [View.canon_unit_zero zero_offsets]
  simp only [View.ld_unit_zero (S := S256x1024) zero_offsets]
  funext y
  obtain ⟨p, q, rfl⟩ : ∃ (p : Fin 256) (q : Fin 1024), y = ix2 p q := ⟨y 0, y 1, eq_ix2 y⟩
  show k0_pay2 (iblk m c 2 t) (k0_pay3 (iblk m c 0 t) (iblk m c 1 t)) (k0_pay4 (iblk m c 0 t) (iblk m c 1 t) (View.ld (iblk m c 3 t) r0_1) (View.ld (iblk m c 4 t) r0_2)) (k0_pay5 (iblk m c 0 t) (iblk m c 1 t) (View.ld (iblk m c 3 t) r0_3) (View.ld (iblk m c 4 t) r0_4)) (k0_pay6 (iblk m c 0 t) (iblk m c 1 t) (View.ld (iblk m c 3 t) r0_5) (View.ld (iblk m c 4 t) r0_6)) (View.ld (iblk m c 3 t) r0_7) (View.ld (iblk m c 4 t) r0_8) (ix2 p q)
    = hidNew (argX m c) (argH m c) (argC m c) (argWx m c) (argRh m c) (argBx m c) (argBh m c) (((cfg0.win 5).blk t).view.emb (ix2 p q))
  rw [emb5 t p q]
  exact (hid_apply (iblk m c 0 t) (iblk m c 1 t) (iblk m c 2 t) (View.ld (iblk m c 3 t) r0_3) (View.ld (iblk m c 4 t) r0_4) (View.ld (iblk m c 3 t) r0_5) (View.ld (iblk m c 4 t) r0_6) (View.ld (iblk m c 3 t) r0_7) (View.ld (iblk m c 4 t) r0_8) (View.ld (iblk m c 3 t) r0_1) (View.ld (iblk m c 4 t) r0_2) p q).trans (hid_at m c t p q)

/-! ## The 64 blocks cover each result array -/

/-- An index of the array is in point t's block of result window 5 iff each coordinate is in the block's range. -/
theorem mem_blk5 (t : Fin cfg0.N) (i : S16384x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v6_0).slice (win0_5.rect t)).set ↔ _
  rw [View.set_slice_whole, Rect.mem_set_unit]
  exact Iff.rfl

/-- Every index of the array is in the block of the point its row falls in: row r belongs to point r / 256. -/
theorem cover5 (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  have hN : (i 0).val / 256 < cfg0.N := lt_of_lt_of_eq (show (i 0).val / 256 < 64 by omega) N_0.symm
  obtain ⟨-, -, -, -, -, -, -, -, -, -, -, e50, e51, e60, e61⟩ := idx_facts ⟨(i 0).val / 256, hN⟩
  refine ⟨⟨(i 0).val / 256, hN⟩, flush0_5 _, ?_⟩
  rw [mem_blk5]
  intro a
  match a with
  | ⟨0, _⟩ =>
    show win0_5.index ⟨(i 0).val / 256, hN⟩ (0 : Fin 2) * 256 ≤ (i 0).val ∧ (i 0).val < win0_5.index ⟨(i 0).val / 256, hN⟩ (0 : Fin 2) * 256 + 256
    have e : win0_5.index ⟨(i 0).val / 256, hN⟩ (0 : Fin 2) = (i 0).val / 256 := e50
    omega
  | ⟨1, _⟩ =>
    show win0_5.index ⟨(i 0).val / 256, hN⟩ (1 : Fin 2) * 1024 ≤ (i 1).val ∧ (i 1).val < win0_5.index ⟨(i 0).val / 256, hN⟩ (1 : Fin 2) * 1024 + 1024
    omega

/-- An index of the array is in point t's block of result window 6 iff each coordinate is in the block's range. -/
theorem mem_blk6 (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v6_1).slice (win0_6.rect t)).set ↔ _
  rw [View.set_slice_whole, Rect.mem_set_unit]
  exact Iff.rfl

/-- Every index of the array is in the block of the point its row falls in: row r belongs to point r / 256. -/
theorem cover6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hN : (i 0).val / 256 < cfg0.N := lt_of_lt_of_eq (show (i 0).val / 256 < 64 by omega) N_0.symm
  obtain ⟨-, -, -, -, -, -, -, -, -, -, -, e50, e51, e60, e61⟩ := idx_facts ⟨(i 0).val / 256, hN⟩
  refine ⟨⟨(i 0).val / 256, hN⟩, flush0_6 _, ?_⟩
  rw [mem_blk6]
  intro a
  match a with
  | ⟨0, _⟩ =>
    show win0_6.index ⟨(i 0).val / 256, hN⟩ (0 : Fin 2) * 256 ≤ (i 0).val ∧ (i 0).val < win0_6.index ⟨(i 0).val / 256, hN⟩ (0 : Fin 2) * 256 + 256
    have e : win0_6.index ⟨(i 0).val / 256, hN⟩ (0 : Fin 2) = (i 0).val / 256 := e60
    omega
  | ⟨1, _⟩ =>
    show win0_6.index ⟨(i 0).val / 256, hN⟩ (1 : Fin 2) * 1024 ≤ (i 1).val ∧ (i 1).val < win0_6.index ⟨(i 0).val / 256, hN⟩ (1 : Fin 2) * 1024 + 1024
    omega

/-! ## The result arrays after the run, and the run -/

/-- The first result ends holding the new hidden state. -/
theorem final_hid (c : Dev nD) : (dats m 0 c).arrAt 5 cfg0.N = hidNew (argX m c) (argH m c) (argC m c) (argWx m c) (argRh m c) (argBx m c) (argBh m c) :=
  (dats m 0 c).arrAt_eq_of_cover 5 (hidNew (argX m c) (argH m c) (argC m c) (argWx m c) (argRh m c) (argBx m c) (argBh m c)) (fun t _ => flushed_hid m c t) cover5

/-- The second result ends holding the new cell state. -/
theorem final_cell (c : Dev nD) : (dats m 0 c).arrAt 6 cfg0.N = cellNew (argX m c) (argH m c) (argC m c) (argWx m c) (argRh m c) (argBx m c) (argBh m c) :=
  (dats m 0 c).arrAt_eq_of_cover 6 (cellNew (argX m c) (argH m c) (argC m c) (argWx m c) (argRh m c) (argBx m c) (argBh m c)) (fun t _ => flushed_cell m c t) cover6

/-- Every weakly fair execution of the program at the ideal values terminates with the two results at the LSTM cell of the
    argument arrays, and the arguments unchanged. -/
theorem run : θ_run defs (onTc (τ := τ) (main (F := Ideal))) ⟨m, fun _ => 0, ρ⟩ fun r => ∀ c : Dev nD,
      r.2.mem ((c : Thread nD τ).loc main_v6_0) = hidNew (argX m c) (argH m c) (argC m c) (argWx m c) (argRh m c) (argBx m c) (argBh m c)
      ∧ r.2.mem ((c : Thread nD τ).loc main_v6_1) = cellNew (argX m c) (argH m c) (argC m c) (argWx m c) (argRh m c) (argBx m c) (argBh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hid m c), (h c).2.1.trans (final_cell m c), (h c).2.2⟩)
    (Value.run_blocks m ρ)

end Cert.KernelIdeal.Blocks

end
-- ==== Proof.RefValue.lean ====
/-
  The reference program's two results, read index by index at the ideal values, are the LSTM cell of Spec.lean.

  The reference stacks the four gates: it contracts Wx against x and Rh against h (two batched products whose result is
  laid out [gate, hidden unit, batch row] and then transposed to [gate, batch row, hidden unit]), adds each bias row
  broadcast over the batch, and adds the two halves: that stack at (g, r, j) is pre g r j. Each gate is then one slice of the
  stack along its first axis, reshaped to [batch row, hidden unit]; the logistic function is spelt 1 / (1 + e^(-x)) with the
  constant one, which on the extended reals is the logistic function itself.
-/
import proofs.«114698_j45140106281360_2_alg».proof.Proof.Gen.ReferenceIdeal.Read
import proofs.«114698_j45140106281360_2_alg».proof.Proof.Spec

noncomputable section

namespace Cert.ReferenceIdeal.RefValue

open Cert.ReferenceIdeal Cert.ReferenceIdeal.Read Cert.LstmCell
open Idealize.ShloMosaic Idealize.ShloMosaic.ValueIdx

/-- The stacked pre-activations (the sum of the two biased projections) at gate g, batch row r, hidden unit j: the
    transposes and broadcasts only move coordinates, and the two contractions are the two sums of pre. -/
theorem pre_apply (x0 x1 : (⟨S16384x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (g : Fin 4) (r : Fin 16384) (j : Fin 1024) :
    val_main_v10 (F := Ideal) x0 x1 x3 x4 x5 x6 (ix3 g r j) = gatePre x0 x1 x3 x5 x4 x6 g r j := by
  rw [val_main_v10_apply, val_main_v4_apply, val_main_v9_apply, val_main_v1_apply, val_main_v3_apply, val_main_v2_apply,
    val_main_v6_apply, val_main_v8_apply, val_main_v7_apply, val_main_v0_apply, val_main_v5_apply]
  have eL0 : ∀ k : Fin 1024, lidx_main_v0 (idx_main_v1 (ix3 g r j)) k = ix3 g j k := fun k => funext fun a => by
    match a with
    | ⟨0, _⟩ => rfl
    | ⟨1, _⟩ => rfl
    | ⟨2, _⟩ => rfl
  have eR0 : ∀ k : Fin 1024, ridx_main_v0 (idx_main_v1 (ix3 g r j)) k = ix2 r k := fun k => funext fun a => by
    match a with
    | ⟨0, _⟩ => rfl
    | ⟨1, _⟩ => rfl
  have eL5 : ∀ k : Fin 1024, lidx_main_v5 (idx_main_v6 (ix3 g r j)) k = ix3 g j k := fun k => funext fun a => by
    match a with
    | ⟨0, _⟩ => rfl
    | ⟨1, _⟩ => rfl
    | ⟨2, _⟩ => rfl
  have eR5 : ∀ k : Fin 1024, ridx_main_v5 (idx_main_v6 (ix3 g r j)) k = ix2 r k := fun k => funext fun a => by
    match a with
    | ⟨0, _⟩ => rfl
    | ⟨1, _⟩ => rfl
  have eb4 : idx_main_v2 (idx_main_v3 (ix3 g r j)) = ix2 g j := funext fun a => by
    match a with
    | ⟨0, _⟩ => rfl
    | ⟨1, _⟩ => rfl
  have eb6 : idx_main_v7 (idx_main_v8 (ix3 g r j)) = ix2 g j := funext fun a => by
    match a with
    | ⟨0, _⟩ => rfl
    | ⟨1, _⟩ => rfl
  simp only [eL0, eR0, eL5, eR5, eb4, eb6]
  rfl

/-- The candidate gate's slice of the stack, reshaped, at (r, j). -/
theorem gate0_apply (x0 x1 : (⟨S16384x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (r : Fin 16384) (j : Fin 1024) :
    val_main_v12 (F := Ideal) x0 x1 x3 x4 x5 x6 (ix2 r j) = gatePre x0 x1 x3 x5 x4 x6 0 r j := by
  rw [val_main_v12_apply, val_main_v11_apply]
  have e : idx_main_v11 (idx_main_v12 (ix2 r j)) = ix3 (0 : Fin 4) r j := funext fun a => Fin.ext (by
    have hr := r.isLt
    have hj := j.isLt
    match a with
    | ⟨0, _⟩ => rfl
    | ⟨1, _⟩ => show (r.val * 1024 + j.val) / 1024 % 16384 = r.val; omega
    | ⟨2, _⟩ => show (r.val * 1024 + j.val) % 1024 = j.val; omega)
  rw [e, pre_apply]

/-- The input gate's slice of the stack, reshaped, at (r, j). -/
theorem gate1_apply (x0 x1 : (⟨S16384x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (r : Fin 16384) (j : Fin 1024) :
    val_main_v15 (F := Ideal) x0 x1 x3 x4 x5 x6 (ix2 r j) = gatePre x0 x1 x3 x5 x4 x6 1 r j := by
  rw [val_main_v15_apply, val_main_v14_apply]
  have e : idx_main_v14 (idx_main_v15 (ix2 r j)) = ix3 (1 : Fin 4) r j := funext fun a => Fin.ext (by
    have hr := r.isLt
    have hj := j.isLt
    match a with
    | ⟨0, _⟩ => rfl
    | ⟨1, _⟩ => show (r.val * 1024 + j.val) / 1024 % 16384 = r.val; omega
    | ⟨2, _⟩ => show (r.val * 1024 + j.val) % 1024 = j.val; omega)
  rw [e, pre_apply]

/-- The forget gate's slice of the stack, reshaped, at (r, j). -/
theorem gate2_apply (x0 x1 : (⟨S16384x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (r : Fin 16384) (j : Fin 1024) :
    val_main_v23 (F := Ideal) x0 x1 x3 x4 x5 x6 (ix2 r j) = gatePre x0 x1 x3 x5 x4 x6 2 r j := by
  rw [val_main_v23_apply, val_main_v22_apply]
  have e : idx_main_v22 (idx_main_v23 (ix2 r j)) = ix3 (2 : Fin 4) r j := funext fun a => Fin.ext (by
    have hr := r.isLt
    have hj := j.isLt
    match a with
    | ⟨0, _⟩ => rfl
    | ⟨1, _⟩ => show (r.val * 1024 + j.val) / 1024 % 16384 = r.val; omega
    | ⟨2, _⟩ => show (r.val * 1024 + j.val) % 1024 = j.val; omega)
  rw [e, pre_apply]

/-- The output gate's slice of the stack, reshaped, at (r, j). -/
theorem gate3_apply (x0 x1 : (⟨S16384x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (r : Fin 16384) (j : Fin 1024) :
    val_main_v31 (F := Ideal) x0 x1 x3 x4 x5 x6 (ix2 r j) = gatePre x0 x1 x3 x5 x4 x6 3 r j := by
  rw [val_main_v31_apply, val_main_v30_apply]
  have e : idx_main_v30 (idx_main_v31 (ix2 r j)) = ix3 (3 : Fin 4) r j := funext fun a => Fin.ext (by
    have hr := r.isLt
    have hj := j.isLt
    match a with
    | ⟨0, _⟩ => rfl
    | ⟨1, _⟩ => show (r.val * 1024 + j.val) / 1024 % 16384 = r.val; omega
    | ⟨2, _⟩ => show (r.val * 1024 + j.val) % 1024 = j.val; omega)
  rw [e, pre_apply]

/-- The reference's second result is the new cell state. -/
theorem cell_eq (x0 x1 x2 : (⟨S16384x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) :
    val_main_v40 (F := Ideal) x0 x1 x2 x3 x4 x5 x6 = cellNew x0 x1 x2 x3 x5 x4 x6 := by
  funext i
  obtain ⟨r, j, rfl⟩ : ∃ (r : Fin 16384) (j : Fin 1024), i = ix2 r j := ⟨i 0, i 1, eq_ix2 i⟩
  simp only [val_main_v40_apply, val_main_v38_apply, val_main_v39_apply, val_main_v29_apply, val_main_v28_apply,
    val_main_v27_apply, val_main_v26_apply, val_main_v25_apply, val_main_v24_apply, val_main_v21_apply, val_main_v20_apply,
    val_main_v19_apply, val_main_v18_apply, val_main_v17_apply, val_main_v16_apply, val_main_v13_apply,
    val_main_cst_apply, val_main_cst_0_apply, val_main_cst_1_apply, val_main_cst_2_apply,
    gate0_apply, gate1_apply, gate2_apply, Ideal.ofBits_def, one_f32]
  rfl

/-- The reference's first result is the new hidden state. -/
theorem hid_eq (x0 x1 x2 : (⟨S16384x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) :
    val_main_v42 (F := Ideal) x0 x1 x2 x3 x4 x5 x6 = hidNew x0 x1 x2 x3 x5 x4 x6 := by
  funext i
  obtain ⟨r, j, rfl⟩ : ∃ (r : Fin 16384) (j : Fin 1024), i = ix2 r j := ⟨i 0, i 1, eq_ix2 i⟩
  simp only [val_main_v42_apply, val_main_v41_apply, val_main_v37_apply, val_main_v36_apply, val_main_v35_apply,
    val_main_v34_apply, val_main_v33_apply, val_main_v32_apply, val_main_cst_3_apply, val_main_cst_4_apply,
    gate3_apply, cell_eq, Ideal.ofBits_def, one_f32]
  rfl

end Cert.ReferenceIdeal.RefValue

end
-- ==== Proof.lean ====
/-
  An LSTM cell computed block by block on a grid against the same cell computed with whole-array operations: equal results
  over the extended reals.

  Both programs compute, for every batch row r and hidden unit j,
      c'[r, j] = σ(pre 2) · c[r, j] + σ(pre 1) · tanh(pre 0),        h'[r, j] = σ(pre 3) · tanh(c'[r, j]),
  where pre g = (Σ_k Wx[g, j, k] · x[r, k] + bx[g, j]) + (Σ_k Rh[g, j, k] · h[r, k] + bh[g, j]) and σ is the logistic
  function (Proof/Spec.lean).

  The whole-array program forms the four gates' pre-activations exactly in that arrangement and spells σ x as
  1 / (1 + e^(-x)), which is the logistic function on every extended real (Proof/RefValue.lean).

  The grid program first stacks the transposed weights [Wxᵀ ; Rhᵀ] and sums the two biases; each of its 64 points then takes
  256 batch rows, lays x and h side by side, and gets each gate by ONE product of length 2048 plus the summed bias
  (Proof/Gate.lean, Proof/Payload.lean, Proof/HostArrays.lean). That fused arrangement equals pre g because the sum over 2048
  positions is the sum of its two halves, products commute, and (A + B) + (p + q) = (A + p) + (B + q): laws of a commutative
  monoid, valid at the infinities too, so the finiteness of the inputs is never used. The 64 blocks written back cover both
  result arrays (Proof/Blocks.lean).

  The idealized grid program is the printed one read over the extended reals (no operation was rewritten), so the
  idealization claim is trivially true; the three frame claims are the programs' runs with the results forgotten.
-/
import proofs.«114698_j45140106281360_2_alg».proof.Defs
import proofs.«114698_j45140106281360_2_alg».proof.Proof.Gen.Kernel
import proofs.«114698_j45140106281360_2_alg».proof.Proof.Gen.Kernel.Frame
import proofs.«114698_j45140106281360_2_alg».proof.Proof.Gen.KernelIdeal
import proofs.«114698_j45140106281360_2_alg».proof.Proof.Gen.KernelIdeal.Frame
import proofs.«114698_j45140106281360_2_alg».proof.Proof.Gen.ReferenceIdeal
import proofs.«114698_j45140106281360_2_alg».proof.Proof.Gen.ReferenceIdeal.Run
import proofs.«114698_j45140106281360_2_alg».proof.Proof.Gen.ReferenceIdeal.Read
import proofs.«114698_j45140106281360_2_alg».proof.Proof.Gen.Pre_finite_inputs
import proofs.«114698_j45140106281360_2_alg».proof.Proof.Blocks
import proofs.«114698_j45140106281360_2_alg».proof.Proof.RefValue
import Idealize.ShloMosaic.Adequacy
import Idealize.ShloMosaic.Init

noncomputable section

namespace Cert.Proof

open Idealize.ShloMosaic Idealize.SL.Sem Cert.LstmCell

/-- The grid program runs and leaves its arguments as they were. -/
theorem frame_kernel : Cert.frame_Kernel := fun m ρ _ => Cert.Kernel.Gen.frame m ρ

/-- So does the grid program read over the extended reals. -/
theorem frame_kernelIdeal : Cert.frame_KernelIdeal := fun m ρ _ => Cert.KernelIdeal.Gen.frame m ρ

/-- The whole-array program's run, its two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation was rewritten on the way to the extended reals. -/
theorem preserves : Cert.preserves_Kernel_KernelIdeal := trivial

/-- From memories that agree on the seven arguments, the grid program ends with its two results at the new hidden state and
    the new cell state of its arguments (Proof/Blocks.lean), and the whole-array program at the same functions of its own
    (Proof/RefValue.lean): the same arrays. -/
theorem algebraic : Cert.algebraic_KernelIdeal_ReferenceIdeal := by
  intro m ρ m' ρ' _ hagree
  refine ⟨fun c => hidNew (Cert.KernelIdeal.HostArrays.argX m c) (Cert.KernelIdeal.HostArrays.argH m c) (Cert.KernelIdeal.HostArrays.argC m c) (Cert.KernelIdeal.HostArrays.argWx m c) (Cert.KernelIdeal.HostArrays.argRh m c) (Cert.KernelIdeal.HostArrays.argBx m c) (Cert.KernelIdeal.HostArrays.argBh m c), fun c => cellNew (Cert.KernelIdeal.HostArrays.argX m c) (Cert.KernelIdeal.HostArrays.argH m c) (Cert.KernelIdeal.HostArrays.argC m c) (Cert.KernelIdeal.HostArrays.argWx m c) (Cert.KernelIdeal.HostArrays.argRh m c) (Cert.KernelIdeal.HostArrays.argBx m c) (Cert.KernelIdeal.HostArrays.argBh m c), Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v42_eq, (hagree c).1, (hagree c).2.1, (hagree c).2.2.1, (hagree c).2.2.2.1,
      (hagree c).2.2.2.2.1, (hagree c).2.2.2.2.2.1, (hagree c).2.2.2.2.2.2, Cert.ReferenceIdeal.RefValue.hid_eq]
  · rw [Cert.ReferenceIdeal.Read.val_main_v40_eq, (hagree c).1, (hagree c).2.1, (hagree c).2.2.1, (hagree c).2.2.2.1,
      (hagree c).2.2.2.2.1, (hagree c).2.2.2.2.2.1, (hagree c).2.2.2.2.2.2, Cert.ReferenceIdeal.RefValue.cell_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
